-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S512x2048 : Shape := ⟨2, ![512, 2048]⟩

abbrev nBuf : Space → Nat
  | .hbm => 23
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S16384x2048, .f32⟩
  | .hbm, ⟨21, _⟩ => ⟨S16384x2048, .f32⟩
  | .hbm, ⟨22, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v14) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.TernaryLinear.lean ====
/-
  The function both programs compute, on extended reals.

  A weight matrix W of 2048 output rows by 2048 input columns is quantized to three levels: with γ the mean of |W| over
  all its entries plus a small constant, every entry w becomes sign (w / γ) · min (round |w / γ|, 1) — `ternary W`.
  An activation array X of 4 batches of 4096 rows of 2048 features is replaced by its signs and multiplied against the
  quantized weights along the feature axis:
      out (b, s, o) = Σ_k sign (X (b, s, k)) · ternary W (o, k)            — `signedLinear X (ternary W)`.
  The same sum over the activations flattened to 16384 rows, against the transposed weights, is `signedRows`.
-/
import Idealize.ShloMosaic.PureOps.Ideal
import Idealize.ShloMosaic.Lib.ValueIdx

noncomputable section

open scoped BigOperators

namespace Cert.TernaryLinear

open Idealize.ShloMosaic Idealize.ShloMosaic.ValueIdx

/-- The activations: 4 batches of 4096 rows of 2048 features. -/
abbrev Act : Shape := ⟨3, ![4, 4096, 2048]⟩
/-- The activations with the batches laid one after the other: 16384 rows of 2048 features. -/
abbrev Rows : Shape := ⟨2, ![16384, 2048]⟩
/-- The weights: 2048 by 2048. -/
abbrev Sq : Shape := ⟨2, ![2048, 2048]⟩
/-- A scalar. -/
abbrev Sc : Shape := ⟨0, ![]⟩

/-- The scale γ of the quantization: the sum of |W| over all entries divided by their number 2^22, plus 10^-6 as a single-precision
    number (the words are the ones both programs print; they are never evaluated). -/
def scale (hr : Sq.ReducesTo [0, 1] Sc) (h0 : 0 < Sc.numel) (W : FVec Ideal Sq .f32) : FVec Ideal Sc .f32 :=
  addf (Host.divf (Host.reduceAdd (F := Ideal) (Host.absf (F := Ideal) W) (constant (F := Ideal) Sc .f32 0x00000000#32) hr h0)
    (constant (F := Ideal) Sc .f32 0x4A800000#32)) (constant (F := Ideal) Sc .f32 0x358637BD#32)

/-- The weights divided by the scale. -/
def scaled (hr : Sq.ReducesTo [0, 1] Sc) (h0 : 0 < Sc.numel) (hb : Sc.BroadcastsInDim Sq (![] : Fin 0 → Fin Sq.rank))
    (W : FVec Ideal Sq .f32) : FVec Ideal Sq .f32 :=
  Host.divf (F := Ideal) W (broadcastInDim Sq ![] hb (scale hr h0 W))

/-- The three-level weights: the sign of each scaled entry times its magnitude rounded to the nearest integer and capped at 1. -/
def ternary (hr : Sq.ReducesTo [0, 1] Sc) (h0 : 0 < Sc.numel) (hb : Sc.BroadcastsInDim Sq (![] : Fin 0 → Fin Sq.rank))
    (W : FVec Ideal Sq .f32) : FVec Ideal Sq .f32 :=
  mulf (Host.sign (F := Ideal) (scaled hr h0 hb W))
    (minimumf (Host.roundeven (F := Ideal) (Host.absf (F := Ideal) (scaled hr h0 hb W)))
      (broadcastInDim Sq ![] hb (constant (F := Ideal) Sc .f32 0x3F800000#32)))

/-- Entry (b, s, o) of the result: the signs of row (b, s) of the activations against row o of the weights Q. -/
def signedLinear (X : FVec Ideal Act .f32) (Q : FVec Ideal Sq .f32) : FVec Ideal Act .f32 :=
  fun i => ∑ k : Fin 2048, Ideal.sign (X (ix3 (i 0) (i 1) k)) * Q (ix2 (i 2) k)

/-- The same product over flattened rows against a matrix T whose COLUMNS are the weight rows (T = Qᵀ): entry (p, o) is
    the signs of row p of X against column o of T. The right factor may be of any float format: at the ideal values
    every format is the extended reals. -/
def signedRows {φ : FTy} (X : FVec Ideal Rows .f32) (T : FVec Ideal Sq φ) : FVec Ideal Rows .f32 :=
  fun j => ∑ k : Fin 2048, Ideal.sign (X (ix2 (j 0) k)) * T (ix2 k (j 1))

end Cert.TernaryLinear

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.BodyProduct.lean ====
/-
  The body of the kernel at one grid point, read at an entry.

  The body loads a block x of 512 rows of the flattened activations and the whole transposed weight matrix w, replaces
  every entry of x by its sign, and multiplies: at the ideal values entry (p, o) of what it stores is
      Σ_k sign (x (p, k)) · w (k, o),
  the sum over the 2048 contraction coordinates. The sign is spelt as two selects on comparisons (−1 below zero, 1
  above it, the entry itself at zero), which on the extended reals is the sign function at every entry, both
  infinities included; the change of format in front of the product is the identity on extended reals.
-/
import proofs.«122738_j57836029608232_1_alg».proof.Proof.Gen.KernelIdeal.Skeleton
import proofs.«122738_j57836029608232_1_alg».proof.Proof.LibMatmulRows
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The two selects of the body, over a whole block, are the sign function at each entry. -/
theorem sign_block (x : FVec Ideal S512x2048 .f32) :
    select (cmpf .ogt (absf x) (broadcast S512x2048 (Scalar.ofBits (F := Ideal) .f32 0x00000000#32)))
        (select (cmpf .olt x (constant (F := Ideal) S512x2048 .f32 0x00000000#32)) (constant (F := Ideal) S512x2048 .f32 0xBF800000#32)
          (constant (F := Ideal) S512x2048 .f32 0x3F800000#32)) x
      = fun i => Ideal.sign (x i) :=
  funext fun i => Ideal.jnp_sign_eq_sign_f32 (x i)

/-- Entry (p, o) of what the body stores: the signs of row p of the activation block against column o of the weights. -/
theorem stored_apply (x : Vec Ideal S512x2048 .f32) (w : Vec Ideal S2048x2048 .bf16) (p : Fin 512) (o : Fin 2048) :
    k0_pay1 (F := Ideal) x w (ix2 p o) = ∑ k : Fin 2048, Ideal.sign (x (ix2 p k)) * w (ix2 k o) := by
  unfold k0_pay1
  refine (Cert.LibMatmulRows.matmul_rows_apply dot_S512x2048_S2048x2048_S512x2048_1_0_0_1_n_n rfl rfl
    (fun _ _ => rfl) (fun _ _ => rfl) (fun _ _ => rfl) (fun _ _ => rfl) none _ _ p o).trans ?_
  refine Finset.sum_congr rfl fun k _ => ?_
  rw [shapeCast_self, shapeCast_self, truncf_apply, sign_block]

/-- The same at any index of the block, written through the index's two coordinates. -/
theorem stored_at (x : Vec Ideal S512x2048 .f32) (w : Vec Ideal S2048x2048 .bf16) (j : S512x2048.Idx) :
    k0_pay1 (F := Ideal) x w j = ∑ k : Fin 2048, Ideal.sign (x (ix2 (j 0) k)) * w (ix2 k (j 1)) := by
  obtain ⟨p, o, rfl⟩ : ∃ (p : Fin 512) (o : Fin 2048), j = ix2 p o := ⟨j 0, j 1, eq_ix2 j⟩
  exact stored_apply x w p o

end Cert.KernelIdeal.Body

end
-- ==== Proof.RowBlocks.lean ====
/-
  From the blocks the grid points write back to the whole output array.

  The grid has 32 points; point t loads rows 512·t … 512·t + 511 of the flattened activations and the whole weight
  matrix, and writes back rows 512·t … 512·t + 511 of the output. What it writes is the body's product of those rows,
  which is the same rows of ONE function of the two whole arrays — `signedRows`: entry (P, o) is the signs of row P of
  the activations against column o of the weight matrix. The 32 row blocks tile the 16384 rows (row P is in block
  P / 512), so after the last point the output array holds `signedRows` of the two arrays the region found.
-/
import proofs.«122738_j57836029608232_1_alg».proof.Proof.Gen.KernelIdeal.Frame
import proofs.«122738_j57836029608232_1_alg».proof.Proof.TernaryLinear
import proofs.«122738_j57836029608232_1_alg».proof.Proof.BodyProduct
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.TernaryLinear

variable (m : (ℓ : Loc nD τ sig) → Buf (Elt Ideal) ℓ)

theorem zero_offsets : (![0, 0] : Fin 2 → Nat) = fun _ => 0 := funext fun a => by fin_cases a <;> rfl

/-- The block indices at point t, decided over the 32 points: the activation window and the output window are at row
    block t, column block 0; the weight window is always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `signedRows` of the two arrays the region found. -/
theorem flushed_eq (c : Dev nD) (t : Fin cfg0.N) :
    (dats m 0 c).flushed 2 t
      = ((cfg0.win 2).blk t).view.read (Elt Ideal)
          (signedRows (φ := .bf16) (V m c main_v14 : S16384x2048.Idx → Elt Ideal .f32) (V m c main_v13 : S2048x2048.Idx → Elt Ideal .bf16)) := by
  show (cfg0.win 2).cut (grid0.coords t) ((dats m 0 c).after 2 t) = _
  rw [after0_2]
  unfold out0_2
  rw [View.canon_unit_zero zero_offsets]
  simp only [View.ld_unit_zero (S := S512x2048) zero_offsets, View.ld_unit_zero (S := S2048x2048) zero_offsets]
  obtain ⟨e0, e1, e2, e3, e4, e5⟩ := block_indices t
  funext j
  show k0_pay1 (F := Ideal) (iblk m c 0 t) (iblk m c 1 t) j
    = signedRows (φ := .bf16) (V m c main_v14 : S16384x2048.Idx → Elt Ideal .f32) (V m c main_v13 : S2048x2048.Idx → Elt Ideal .bf16) (((cfg0.win 2).blk t).view.emb j)
  refine (Cert.KernelIdeal.Body.stored_at _ _ j).trans ?_
  unfold signedRows
  refine Finset.sum_congr rfl fun k _ => ?_
  have hj0 : (j 0).val < 512 := (j 0).isLt
  have hj1 : (j 1).val < 2048 := (j 1).isLt
  have hk : k.val < 2048 := k.isLt
  -- row (j 0) of the activation block is row 512·t + j 0 of the activations
  have hx : iblk m c 0 t (ix2 (j 0) k)
      = (V m c main_v14 : S16384x2048.Idx → Elt Ideal .f32) (ix2 ((((cfg0.win 2).blk t).view.emb j) 0) k) := by
    show V m c main_v14 (((cfg0.win 0).blk t).view.emb (ix2 (j 0) k)) = V m c main_v14 (ix2 ((((cfg0.win 2).blk t).view.emb j) 0) k)
    refine congrArg (V m c main_v14) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * k.val = k.val; omega
  -- the weight block is the whole weight matrix
  have hw : iblk m c 1 t (ix2 k (j 1))
      = (V m c main_v13 : S2048x2048.Idx → Elt Ideal .bf16) (ix2 k ((((cfg0.win 2).blk t).view.emb j) 1)) := by
    show V m c main_v13 (((cfg0.win 1).blk t).view.emb (ix2 k (j 1))) = V m c main_v13 (ix2 k ((((cfg0.win 2).blk t).view.emb j) 1))
    refine congrArg (V m c main_v13) (funext fun a => Fin.ext ?_)
    match a with
    | ⟨0, _⟩ => show win0_1.index t (0 : Fin 2) * 2048 + 1 * k.val = k.val; omega
    | ⟨1, _⟩ => show win0_1.index t (1 : Fin 2) * 2048 + 1 * (j 1).val = win0_2.index t (1 : Fin 2) * 2048 + 1 * (j 1).val; omega
  rw [hx, hw]

/-- An index of the output array is in point t's block iff each coordinate is in the block's range on its axis. -/
theorem mem_block (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v15).slice (win0_2.rect t)).set ↔ _
  rw [View.set_slice_whole, Rect.mem_set_unit]
  exact Iff.rfl

/-- Every row of the output is in some point's block: row P in the block of point P / 512. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_2 _, ?_⟩
  rw [mem_block]
  obtain ⟨e0, e1, e2, e3, e4, e5⟩ := block_indices ⟨(i 0).val / 512, by rw [hN]; omega⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 2048 ≤ (i 1).val ∧ (i 1).val < win0_2.index _ (1 : Fin 2) * 2048 + 2048
    rw [e5]; omega

/-- The output array after the run: `signedRows` of the two arrays the region found. -/
theorem final (c : Dev nD) :
    (dats m 0 c).arrAt 2 cfg0.N
      = signedRows (φ := .bf16) (V m c main_v14 : S16384x2048.Idx → Elt Ideal .f32) (V m c main_v13 : S2048x2048.Idx → Elt Ideal .bf16) :=
  (dats m 0 c).arrAt_eq_of_cover 2 _ (fun t _ => flushed_eq m c t) (covered)

end Cert.KernelIdeal.Blocks

end
-- ==== Proof.RegionInputs.lean ====
/-
  What the region's two input arrays hold when the region is entered.

  Before the region the host lines flatten the activations, 4 batches of 4096 rows, to 16384 rows (a reshape: the same
  elements in the same row-major order), and quantize the weights to three levels, transpose them and change their
  format. So the first window's array is the reshape of the first argument, and the second window's array is the
  transposed three-level weights of the second argument.
-/
import proofs.«122738_j57836029608232_1_alg».proof.Proof.Gen.KernelIdeal.Frame
import proofs.«122738_j57836029608232_1_alg».proof.Proof.TernaryLinear
import Idealize.ShloMosaic.Lib.StableHlo.Run
import Idealize.ShloMosaic.Lib.Pipeline.Value
import Idealize.ShloMosaic.Lib.ValueIdx

noncomputable section

namespace Cert.KernelIdeal.Entry

open Idealize.ShloMosaic Idealize.ShloMosaic.TcCoe Idealize.SL.Sem Idealize.ShloMosaic.StableHlo
open Cert.KernelIdeal Cert.KernelIdeal.Gen Cert.TernaryLinear

variable (m : (ℓ : Loc nD τ sig) → Buf (Elt Ideal) ℓ)

/-- The activation rows the region finds: the first argument, reshaped to 16384 rows. -/
theorem rows_entry (c : Dev nD) :
    (V m c main_v14 : S16384x2048.Idx → Elt Ideal .f32)
      = shapeCast S16384x2048 (m ((c : Thread nD τ).loc main_arg0) : S4x4096x2048.Idx → Elt Ideal .f32) shapeCasts_S4x4096x2048_S16384x2048 := by
  dsimp only [V, V0]
  simp only [hostOps0, hostOps0_1, hostOps0_2, List.flatten_cons, List.flatten_nil, List.append_nil, List.cons_append, List.nil_append]
  after_results
  rfl

/-- The weight matrix the region finds: the three-level weights of the second argument, transposed (the change of format
    is the identity at the ideal values, and is kept as written). -/
theorem weights_entry (c : Dev nD) :
    (V m c main_v13 : S2048x2048.Idx → Elt Ideal .bf16)
      = truncf .bf16 (transpose S2048x2048 [1, 0]
          (ternary reducesTo_S2048x2048_S_d0_1 h_S_ bcast_S_S2048x2048 (m ((c : Thread nD τ).loc main_arg1) : S2048x2048.Idx → Elt Ideal .f32))
          transposes_S2048x2048_S2048x2048_1_0) bitsLt_bf16_f32 := by
  dsimp only [V, V0]
  simp only [hostOps0, hostOps0_1, hostOps0_2, List.flatten_cons, List.flatten_nil, List.append_nil, List.cons_append, List.nil_append]
  after_results
  rfl

end Cert.KernelIdeal.Entry

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.FlattenedProduct.lean ====
/-
  The product over flattened rows, un-flattened, is the product over batches.

  Flattening 4 batches of 4096 rows to 16384 rows puts row s of batch b at row 4096·b + s, and un-flattening the result
  takes it back; the right factor of the flattened product is the transposed weight matrix, whose entry (k, o) is the
  weights' entry (o, k). So entry (b, s, o) of the un-flattened product of the flattened activations against the
  transposed weights is Σ_k sign (X (b, s, k)) · Q (o, k): `signedLinear X Q`.
-/
import proofs.«122738_j57836029608232_1_alg».proof.Proof.TernaryLinear
import proofs.«122738_j57836029608232_1_alg».proof.Proof.LibBatchBlocks
import Idealize.ShloMosaic.Lib.Pipeline.Value
import Idealize.ShloMosaic.Lib.ValueIdx

noncomputable section

open scoped BigOperators

namespace Cert.TernaryLinear

open Idealize.ShloMosaic Idealize.ShloMosaic.ValueIdx

/-- Entry (k, o) of the transposed matrix is entry (o, k) of the matrix. -/
theorem transposed_apply (Q : FVec Ideal Sq .f32) (ht : Sq.Transposes [1, 0] Sq) (k o : Fin 2048) :
    transpose Sq [1, 0] Q ht (ix2 k o) = Q (ix2 o k) :=
  transpose_apply [1, 0] Q ht (ix2 k o) (ix2 o k) (fun b => by
    match b with
    | ⟨0, _⟩ => rfl
    | ⟨1, _⟩ => rfl)

/-- Flatten, multiply against the transposed weights (in any float format), un-flatten: the product over batches. -/
theorem unflatten_signedRows (X : FVec Ideal Act .f32) (Q : FVec Ideal Sq .f32)
    (hflat : Act.ShapeCasts Rows) (hback : Rows.ShapeCasts Act) (ht : Sq.Transposes [1, 0] Sq) (hbits : FTy.bits .bf16 < FTy.bits .f32) :
    shapeCast Act (signedRows (shapeCast Rows X hflat) (truncf .bf16 (transpose Sq [1, 0] Q ht) hbits)) hback = signedLinear X Q := by
  funext i
  obtain ⟨b, s, o, rfl⟩ : ∃ (b : Fin 4) (s : Fin 4096) (o : Fin 2048), i = ix3 b s o := ⟨i 0, i 1, i 2, eq_ix3 i⟩
  have hb : b.val < 4 := b.isLt
  have hs : s.val < 4096 := s.isLt
  rw [Cert.LibBatchBlocks.shapeCast_split01_apply _ hback (⟨b.val * 4096 + s.val, by omega⟩ : Fin 16384) b s o rfl]
  unfold signedRows signedLinear
  refine Finset.sum_congr rfl fun k _ => ?_
  show Ideal.sign (shapeCast Rows X hflat (ix2 (⟨b.val * 4096 + s.val, by omega⟩ : Fin 16384) k))
      * (truncf .bf16 (transpose Sq [1, 0] Q ht) hbits) (ix2 k o)
    = Ideal.sign (X (ix3 b s k)) * Q (ix2 o k)
  rw [Cert.LibBatchBlocks.shapeCast_merge01_apply X hflat (⟨b.val * 4096 + s.val, by omega⟩ : Fin 16384) b s k rfl,
    truncf_apply, transposed_apply]

end Cert.TernaryLinear

end
-- ==== Proof.KernelResult.lean ====
/-
  The kernel's result array after the run.

  After the region one host line un-flattens the region's output, 16384 rows, back to 4 batches of 4096 rows. The
  region's output is `signedRows` of the flattened activations and the transposed three-level weights (the blocks tile
  it), so the result is `signedLinear` of the two arguments: entry (b, s, o) is the sum over k of
  sign (X (b, s, k)) · ternary W (o, k). The two arguments end as they were launched.
-/
import proofs.«122738_j57836029608232_1_alg».proof.Proof.RowBlocks
import proofs.«122738_j57836029608232_1_alg».proof.Proof.RegionInputs
import proofs.«122738_j57836029608232_1_alg».proof.Proof.FlattenedProduct
import Idealize.ShloMosaic.Lib.StableHlo.Run

noncomputable section

namespace Cert.KernelIdeal.Result

open Idealize.ShloMosaic Idealize.ShloMosaic.TcCoe Idealize.SL.Sem Idealize.ShloMosaic.StableHlo
open Cert.KernelIdeal Cert.KernelIdeal.Gen Cert.TernaryLinear

variable (m : (ℓ : Loc nD τ sig) → Buf (Elt Ideal) ℓ) (ρ : Dev nD → PrngReg)

/-- The host line after the region reads the region's output array, which the blocks filled with `signedRows`. -/
theorem tail_eq (c : Dev nD) :
    (Pipeline.afterTail₀ cfgs (dats m) 0 (V0 m) [hostOps1] c main_v16 : S4x4096x2048.Idx → Elt Ideal .f32)
      = shapeCast S4x4096x2048
          (signedRows (φ := .bf16) (V m c main_v14 : S16384x2048.Idx → Elt Ideal .f32) (V m c main_v13 : S2048x2048.Idx → Elt Ideal .bf16))
          shapeCasts_S16384x2048_S4x4096x2048 := by
  have hw : Pipeline.withArrays (cfgs 0).spec c (V0 m c) (fun w => (dats m 0 c).arrAt w (cfgs 0).N) (Proc.devRef .tc main_v15)
      = signedRows (φ := .bf16) (V m c main_v14 : S16384x2048.Idx → Elt Ideal .f32) (V m c main_v13 : S2048x2048.Idx → Elt Ideal .bf16) :=
    (Pipeline.withArrays_arr spec0 launch0.win.arr_inj c _ _ 2).trans (Cert.KernelIdeal.Blocks.final m c)
  unfold Pipeline.afterTail₀
  show StableHlo.after hostOps1 _ (Proc.devRef .tc main_v16) = _
  after_results
  rw [hw]
  rfl

/-- The result array: `signedLinear` of the first argument and the three-level weights of the second. -/
theorem result_eq (c : Dev nD) :
    (Pipeline.afterTail₀ cfgs (dats m) 0 (V0 m) [hostOps1] c main_v16 : S4x4096x2048.Idx → Elt Ideal .f32)
      = signedLinear (m ((c : Thread nD τ).loc main_arg0) : S4x4096x2048.Idx → Elt Ideal .f32)
          (ternary reducesTo_S2048x2048_S_d0_1 h_S_ bcast_S_S2048x2048 (m ((c : Thread nD τ).loc main_arg1) : S2048x2048.Idx → Elt Ideal .f32)) := by
  rw [tail_eq, Cert.KernelIdeal.Entry.rows_entry, Cert.KernelIdeal.Entry.weights_entry]
  exact unflatten_signedRows _ _ _ _ _ _

/-- The run, read: every weakly fair execution ends with the result array at `signedLinear` of the arguments and the
    arguments unchanged. -/
theorem run : θ_run defs (onTc (τ := τ) (main (F := Ideal))) ⟨m, fun _ => 0, ρ⟩ fun r => ∀ c : Dev nD,
      r.2.mem ((c : Thread nD τ).loc main_v16)
        = signedLinear (m ((c : Thread nD τ).loc main_arg0) : S4x4096x2048.Idx → Elt Ideal .f32)
            (ternary reducesTo_S2048x2048_S_d0_1 h_S_ bcast_S_S2048x2048 (m ((c : Thread nD τ).loc main_arg1) : S2048x2048.Idx → Elt Ideal .f32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v16 (Pipeline.mem_restRefs_of main_v16 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.ReferenceResult.lean ====
/-
  The reference computes `signedLinear` of the activations and the three-level weights.

  Its host lines quantize the weights exactly as the kernel's do, take the signs of the activations, and contract the
  feature axis of the signs with the input axis of the quantized weights: entry (b, s, o) is the sum over k of
  sign (X (b, s, k)) · ternary W (o, k).
-/
import proofs.«122738_j57836029608232_1_alg».proof.Proof.Gen.ReferenceIdeal.Read
import proofs.«122738_j57836029608232_1_alg».proof.Proof.TernaryLinear
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.TernaryLinear

/-- The reference's quantized weights are the three-level weights: the same operations, stage by stage. -/
theorem weights_stage (W : (⟨S2048x2048, .f32⟩ : BufTy).Contents (Elt Ideal)) :
    val_main_v12 (F := Ideal) W = ternary reducesTo_S2048x2048_S_d0_1 h_S_ bcast_S_S2048x2048 W := rfl

/-- The reference's result, entry by entry. -/
theorem result_eq (X : (⟨S4x4096x2048, .f32⟩ : BufTy).Contents (Elt Ideal)) (W : (⟨S2048x2048, .f32⟩ : BufTy).Contents (Elt Ideal)) :
    val_main_v13 (F := Ideal) X W = signedLinear X (ternary reducesTo_S2048x2048_S_d0_1 h_S_ bcast_S_S2048x2048 W) := by
  funext i
  obtain ⟨b, s, o, rfl⟩ : ∃ (b : Fin 4) (s : Fin 4096) (o : Fin 2048), i = ix3 b s o := ⟨i 0, i 1, i 2, eq_ix3 i⟩
  rw [val_main_v13_apply]
  unfold signedLinear
  refine Finset.sum_congr rfl fun k _ => ?_
  have el : lidx_main_v13 (ix3 b s o) k = ix3 b s k := funext fun a => Fin.ext (by
    match a with
    | ⟨0, _⟩ => rfl
    | ⟨1, _⟩ => rfl
    | ⟨2, _⟩ => rfl)
  have er : ridx_main_v13 (ix3 b s o) k = ix2 o k := funext fun a => Fin.ext (by
    match a with
    | ⟨0, _⟩ => rfl
    | ⟨1, _⟩ => rfl)
  rw [el, er, weights_stage]
  rfl

end Cert.ReferenceIdeal.RefValue

end
-- ==== Proof.Claims.lean ====
/-
  The five claims.

  The three frames are the generated ones (the reference's is its generated run with the result dropped). The one
  rewrite of the idealization — the sign bit of an activation read as a comparison with zero — is the rule's own
  statement at the block's shape. For the equivalence, both idealized programs end with their result array at
  `signedLinear X (ternary W)` of the same two arguments X and W: entry (b, s, o) is the sum over the 2048 features k of
  sign (X (b, s, k)) · ternary W (o, k). The kernel reaches it block by block over flattened rows and transposed weights,
  the reference by one contraction; no property of the inputs beyond their being extended reals is used.
-/
import proofs.«122738_j57836029608232_1_alg».proof.Defs
import proofs.«122738_j57836029608232_1_alg».proof.Proof.Gen.Kernel.Frame
import proofs.«122738_j57836029608232_1_alg».proof.Proof.Gen.KernelIdeal.Frame
import proofs.«122738_j57836029608232_1_alg».proof.Proof.Gen.ReferenceIdeal.Run
import proofs.«122738_j57836029608232_1_alg».proof.Proof.Gen.ReferenceIdeal.Read
import proofs.«122738_j57836029608232_1_alg».proof.Proof.Gen.Pre_finite_inputs
import proofs.«122738_j57836029608232_1_alg».proof.Proof.KernelResult
import proofs.«122738_j57836029608232_1_alg».proof.Proof.ReferenceResult

noncomputable section

namespace Cert.Proof.Claims

open Idealize.ShloMosaic Idealize.ShloMosaic.TcCoe Idealize.SL.Sem Cert.TernaryLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: at the word level the window builds ±1.0 from the activation's sign bit; at the ideal
    values the select on "below zero" is printed in its place. -/
theorem preserves : Cert.preserves_Kernel_KernelIdeal :=
  IdealRules.sign_bit.statement Cert.KernelIdeal.S512x2048 .f32

/-- Both idealized programs end at `signedLinear` of the activations and the three-level weights. -/
theorem algebraic : Cert.algebraic_KernelIdeal_ReferenceIdeal := by
  intro m ρ m' ρ' _ hagree
  refine ⟨fun c => signedLinear (m ((c.tc : Thread Cert.KernelIdeal.nD Cert.KernelIdeal.τ).loc Cert.KernelIdeal.main_arg0))
      (ternary Cert.KernelIdeal.Facts₀.reducesTo_S2048x2048_S_d0_1 Cert.KernelIdeal.Facts₀.h_S_ Cert.KernelIdeal.Facts₀.bcast_S_S2048x2048
        (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

end Cert.Proof.Claims

end
-- ==== Proof.lean ====
/- A linear layer with sign activations and three-level weights, as a tiled kernel and as one contraction.

   Both programs take activations X (4 batches of 4096 rows of 2048 features) and weights W (2048 by 2048), quantize W
   to the three levels sign (w / γ) · min (round |w / γ|, 1) with γ the mean of |W| plus a small constant, replace X by
   its signs, and contract the feature axis: out (b, s, o) = Σ_k sign (X (b, s, k)) · ternary W (o, k).
   The kernel flattens the batches to 16384 rows, transposes the quantized weights, and computes the product 512 rows at
   a time over a grid of 32 points, then un-flattens; the reference contracts once. At the ideal values the two are the
   same sum, term by term.

   The modules: TernaryLinear (the function), BodyProduct (one grid point's product at an entry), RegionInputs (the two
   arrays the grid reads), RowBlocks (the 32 row blocks tile the output), FlattenedProduct (flatten, multiply,
   un-flatten is the product over batches), KernelResult and ReferenceResult (each program's result is the function),
   Claims (the five claims). -/
import proofs.«122738_j57836029608232_1_alg».proof.Defs
import proofs.«122738_j57836029608232_1_alg».proof.Proof.Gen.Kernel
import proofs.«122738_j57836029608232_1_alg».proof.Proof.Gen.Kernel.Skeleton
import proofs.«122738_j57836029608232_1_alg».proof.Proof.Gen.Kernel.Launch
import proofs.«122738_j57836029608232_1_alg».proof.Proof.Gen.Kernel.Points
import proofs.«122738_j57836029608232_1_alg».proof.Proof.Gen.Kernel.Frame
import proofs.«122738_j57836029608232_1_alg».proof.Proof.Gen.KernelIdeal
import proofs.«122738_j57836029608232_1_alg».proof.Proof.Gen.KernelIdeal.Skeleton
import proofs.«122738_j57836029608232_1_alg».proof.Proof.Gen.KernelIdeal.Launch
import proofs.«122738_j57836029608232_1_alg».proof.Proof.Gen.KernelIdeal.Points
import proofs.«122738_j57836029608232_1_alg».proof.Proof.Gen.KernelIdeal.Frame
import proofs.«122738_j57836029608232_1_alg».proof.Proof.Gen.ReferenceIdeal
import proofs.«122738_j57836029608232_1_alg».proof.Proof.Gen.Pre_finite_inputs
import proofs.«122738_j57836029608232_1_alg».proof.Proof.Gen.ReferenceIdeal.Run
import proofs.«122738_j57836029608232_1_alg».proof.Proof.Gen.ReferenceIdeal.Read
import proofs.«122738_j57836029608232_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
